-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S16384x1024 : Shape := ⟨2, ![16384, 1024]⟩
abbrev S4x16x4096x64 : Shape := ⟨4, ![4, 16, 4096, 64]⟩
abbrev S256x1024 : Shape := ⟨2, ![256, 1024]⟩
abbrev S1x16x256x64 : Shape := ⟨4, ![1, 16, 256, 64]⟩
abbrev S256x3072 : Shape := ⟨2, ![256, 3072]⟩
abbrev S256x16x64 : Shape := ⟨3, ![256, 16, 64]⟩
abbrev S16x256x64 : Shape := ⟨3, ![16, 256, 64]⟩

abbrev nBuf : Space → Nat
  | .hbm => 15
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S1x3072, .f32⟩
  | .hbm, ⟨11, _⟩ => ⟨S16384x1024, .f32⟩
  | .hbm, ⟨12, _⟩ => ⟨S4x16x4096x64, .f32⟩
  | .hbm, ⟨13, _⟩ => ⟨S4x16x4096x64, .f32⟩
  | .hbm, ⟨14, _⟩ => ⟨S4x16x4096x64, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S1x3072, .f32⟩
  | .local _ .vmem, ⟨4, _⟩ => ⟨S1x16x256x64, .f32⟩
  | .local _ .vmem, ⟨5, _⟩ => ⟨S1x16x256x64, .f32⟩
  | .local _ .vmem, ⟨6, _⟩ => ⟨S1x16x256x64, .f32⟩
  | .local _ .vmem, ⟨7, _⟩ => ⟨S1x16x256x64, .f32⟩
  | .local _ .vmem, ⟨8, _⟩ => ⟨S1x16x256x64, .f32⟩
  | .local _ .vmem, ⟨9, _⟩ => ⟨S1x16x256x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S4x4096x1024_S16384x1024 : S4x4096x1024.ShapeCasts S16384x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  shapeCasts_S256x1024_S256x16x64 : S256x1024.ShapeCasts S256x16x64
  transposes_S256x16x64_p1_0_2_S16x256x64 : S256x16x64.Transposes [1, 0, 2] S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  shapeCasts_S16x256x64_S1x16x256x64 : S16x256x64.ShapeCasts S1x16x256x64
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x64.size a ≤ S4x16x4096x64.size a
  hwx0_3 : ∀ i : grid0.Coords, EltTy.bits .f32 = 32 ∨ (Rect.block (s := S4x16x4096x64) S1x16x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S4x16x4096x64.size a
  hwx0_4 : ∀ i : grid0.Coords, EltTy.bits .f32 = 32 ∨ (Rect.block (s := S4x16x4096x64) S1x16x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256x64.size a ≤ S4x16x4096x64.size a
  hwx0_5 : ∀ i : grid0.Coords, EltTy.bits .f32 = 32 ∨ (Rect.block (s := S4x16x4096x64) S1x16x256x64.size (cc0_transform_5 i) (hinb0_5 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_v4) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x16x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x16x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x16x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S4x4096x3072 : Shape := ⟨3, ![4, 4096, 3072]⟩
abbrev S1x1x3072 : Shape := ⟨3, ![1, 1, 3072]⟩
abbrev S4x4096x16x64 : Shape := ⟨4, ![4, 4096, 16, 64]⟩
abbrev S4x16x4096x64 : Shape := ⟨4, ![4, 16, 4096, 64]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S4x4096x3072, .f32⟩
  | .hbm, ⟨10, _⟩ => ⟨S1x1x3072, .f32⟩
  | .hbm, ⟨11, _⟩ => ⟨S4x4096x3072, .f32⟩
  | .hbm, ⟨12, _⟩ => ⟨S4x4096x3072, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x16x64, .f32⟩
  | .hbm, ⟨17, _⟩ => ⟨S4x16x4096x64, .f32⟩
  | .hbm, ⟨18, _⟩ => ⟨S4x4096x16x64, .f32⟩
  | .hbm, ⟨19, _⟩ => ⟨S4x16x4096x64, .f32⟩
  | .hbm, ⟨20, _⟩ => ⟨S4x4096x16x64, .f32⟩
  | .hbm, ⟨21, _⟩ => ⟨S4x16x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  dot_S4x4096x1024_S1024x3072_S4x4096x3072_2_0_01_1_n_n_wf : DotDims.WF S4x4096x1024 S1024x3072 S4x4096x3072 [2] [0] [0, 1] [1] [] []

variable [Facts₀]

def dot_S4x4096x1024_S1024x3072_S4x4096x3072_2_0_01_1_n_n : DotDims S4x4096x1024 S1024x3072 S4x4096x3072 where
  lhsContracting := [2]
  rhsContracting := [0]
  lhsNonContracting := [0, 1]
  rhsNonContracting := [1]
  lhsBatch := []
  rhsBatch := []
  wf := dot_S4x4096x1024_S1024x3072_S4x4096x3072_2_0_01_1_n_n_wf

class Facts : Prop extends Facts₀ where

variable [Facts]
-- ==== Proof.KernelFrame.lean ====
/-
  The region of `Kernel` run to its end, and what it leaves.

  @main is five host operations — the three weight matrices laid side by side into a [1024, 3072] matrix and
  rounded to bf16, the three bias vectors laid end to end into a [3072] vector and reshaped to [1, 3072], the
  activations [4, 4096, 1024] reshaped to [16384, 1024] — followed by one region over a grid of 64 points.
  Point `t` is handed rows `256·t … 256·t + 255` of the reshaped activations (window 0), the whole weight matrix
  (window 1) and the whole bias row (window 2), and stores one [1, 16, 256, 64] block into each of the three
  results (windows 3, 4, 5). None of the host operations writes an argument array, and the region writes only
  its three results, so the seven argument arrays end as they were launched.

  Stated at any float instance `F`: nothing here looks inside the arithmetic, which stays behind the names
  `k0_pay2`, `k0_pay3`, `k0_pay4` (what the body stores into each result's block, from the three loads).
-/
import proofs.«146781_j58463094833510_2_alg».proof.Proof.Gen.Kernel.Launch
import proofs.«146781_j58463094833510_2_alg».proof.Proof.Gen.Kernel.Skeleton
import proofs.«146781_j58463094833510_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.FrameRun

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the five host operations. -/
abbrev V (c : Dev nD) (b : Ref sig .tc) : Buf (Elt F) ((c : Thread nD τ).loc b) :=
  StableHlo.after hostOps0 (fun b => m (c, b)) b

/-- No host operation leaves a buffer at contents it does not determine. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0 … main_v4` only: an argument array is found as launched. -/
theorem V_arg (a : Ref sig .tc) (h0 : main_v0 ≠ a) (h1 : main_v1 ≠ a) (h2 : main_v2 ≠ a) (h3 : main_v3 ≠ a) (h4 : main_v4 ≠ a)
    (c : Dev nD) : V m c a = m ((c : Thread nD τ).loc a) :=
  StableHlo.after_of_forall_not_mem (b := Proc.devRef .tc a) _ _ (List.forall_iff_forall_mem.mp (by
    simp only [hostOps0, List.Forall, StableHlo.nary_writes, StableHlo.unary_writes, StableHlo.reshape_writes, Finset.mem_singleton]
    exact ⟨(StableHlo.devRef_ne_of_ne h0.symm), (StableHlo.devRef_ne_of_ne h1.symm), (StableHlo.devRef_ne_of_ne h2.symm),
      (StableHlo.devRef_ne_of_ne h3.symm), (StableHlo.devRef_ne_of_ne h4.symm)⟩))

theorem V_main_arg0 (c : Dev nD) : V m c main_arg0 = m ((c : Thread nD τ).loc main_arg0) :=
  V_arg m main_arg0 (by decide) (by decide) (by decide) (by decide) (by decide) c
theorem V_main_arg1 (c : Dev nD) : V m c main_arg1 = m ((c : Thread nD τ).loc main_arg1) :=
  V_arg m main_arg1 (by decide) (by decide) (by decide) (by decide) (by decide) c
theorem V_main_arg2 (c : Dev nD) : V m c main_arg2 = m ((c : Thread nD τ).loc main_arg2) :=
  V_arg m main_arg2 (by decide) (by decide) (by decide) (by decide) (by decide) c
theorem V_main_arg3 (c : Dev nD) : V m c main_arg3 = m ((c : Thread nD τ).loc main_arg3) :=
  V_arg m main_arg3 (by decide) (by decide) (by decide) (by decide) (by decide) c
theorem V_main_arg4 (c : Dev nD) : V m c main_arg4 = m ((c : Thread nD τ).loc main_arg4) :=
  V_arg m main_arg4 (by decide) (by decide) (by decide) (by decide) (by decide) c
theorem V_main_arg5 (c : Dev nD) : V m c main_arg5 = m ((c : Thread nD τ).loc main_arg5) :=
  V_arg m main_arg5 (by decide) (by decide) (by decide) (by decide) (by decide) c
theorem V_main_arg6 (c : Dev nD) : V m c main_arg6 = m ((c : Thread nD τ).loc main_arg6) :=
  V_arg m main_arg6 (by decide) (by decide) (by decide) (by decide) (by decide) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, whether the block was fetched there or is the one
    the point before left: the body leaves it in place, and an unfetched block is the same block. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, whether the block was fetched there or is the one
    the point before left: the body leaves it in place, and an unfetched block is the same block. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, whether the block was fetched there or is the one
    the point before left: the body leaves it in place, and an unfetched block is the same block. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's -/

/-- From a run to the region's post: window 0's array is the reshaped activations, not an argument, so every
    argument array bypasses the region and is read back as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c)⟩) h

/-! ## The body's accesses: every load and store is of a whole buffer -/

abbrev rX : Rect S256x1024 := Rect.unit (s := S256x1024) ![0, 0] S256x1024.size inb_S256x1024_S256x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev rO : Rect S1x16x256x64 := Rect.unit (s := S1x16x256x64) ![0, 0, 0, 0] S1x16x256x64.size inb_S1x16x256x64_S1x16x256x64_0_0_0_0

/-! ## What the body leaves in each result's buffer -/

/-- The first result's buffer after the body: its one store, of `k0_pay2` of the three loads. -/
def outQ (x0 : Vec F S256x1024 .f32) (x1 : Vec F S1024x3072 .bf16) (x2 : Vec F S1x3072 .f32) : Vec F S1x16x256x64 .f32 :=
  View.canon [⟨rO, k0_pay2 (View.ld x0 rX) (View.ld x1 rW) (View.ld x2 rB)⟩]
/-- The second result's: `k0_pay3`. -/
def outK (x0 : Vec F S256x1024 .f32) (x1 : Vec F S1024x3072 .bf16) (x2 : Vec F S1x3072 .f32) : Vec F S1x16x256x64 .f32 :=
  View.canon [⟨rO, k0_pay3 (View.ld x0 rX) (View.ld x1 rW) (View.ld x2 rB)⟩]
/-- The third result's: `k0_pay4`. -/
def outV (x0 : Vec F S256x1024 .f32) (x1 : Vec F S1024x3072 .bf16) (x2 : Vec F S1x3072 .f32) : Vec F S1x16x256x64 .f32 :=
  View.canon [⟨rO, k0_pay4 (View.ld x0 rX) (View.ld x1 rW) (View.ld x2 rB)⟩]

/-- The one store is of the whole buffer, so it covers it. -/
theorem coverO (p0 : Vec F S1x16x256x64 .f32) (y : S1x16x256x64.Idx) :
    ∃ pc ∈ ([⟨rO, p0⟩] : List (View.Piece (Elt F) S1x16x256x64 .f32)), y ∈ pc.1.set :=
  View.cover_of_tiled [⟨rO, p0⟩] S1x16x256x64.size (by rfl) y

/-! ## The body's triple -/

set_option maxHeartbeats 1000000 in
/-- The body on whole buffers — the three inputs' at known contents, the three results' at anything — runs to the
    end leaving the inputs' as they were and each result's at its one store. -/
theorem sound_kernel (c : Dev nD) (E : Set ℕ) (i : grid0.Coords)
    (arg1 : Memref sig .tc .vmem S256x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1x16x256x64 .f32) (harg4 : arg4.IsWhole)
    (arg5 : Memref sig .tc .vmem S1x16x256x64 .f32) (harg5 : arg5.IsWhole) (arg6 : Memref sig .tc .vmem S1x16x256x64 .f32) (harg6 : arg6.IsWhole)
    (x0 : Vec F S256x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outQ x0 x1 x2) ∗ owns (c : Thread nD τ) arg5 fullShare (outK x0 x1 x2)
            ∗ owns (c : Thread nD τ) arg6 fullShare (outV x0 x1 x2)) -∗ K ⟨⟩))
      ⊢ wp frame (wpE (defs₀ (F := F)) Variants.none c none) E (cc0__fused_qkv_kernel i arg1 harg1 arg2 harg2 arg3 harg3 arg4 harg4 arg5 harg5 arg6 harg6) K := by
  simp only [cc0__fused_qkv_kernel_eq_skeleton]; unfold cc0__fused_qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  isplitl [H4]
  · iexists _; isplitr
    swap; · iexact H4
    ipureintro
    exact View.read_writes_eq_canon _ _ _ (coverO _)
  iexists _; isplitr
  swap; · iexact H5
  ipureintro
  exact View.read_writes_eq_canon _ _ _ (coverO _)

/-! ## The pipeline's proof data -/

/-- The arrays as the region finds them; after the body at point `t` each input's buffer at its block and each
    result's at its one store over the three input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outQ (iblk m c 0 t) (iblk m c 1 t) (iblk m c 2 t)
    | ⟨4, _⟩ => outK (iblk m c 0 t) (iblk m c 1 t) (iblk m c 2 t)
    | ⟨5, _⟩ => outV (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outQ (iblk m c 0 t) (iblk m c 1 t) (iblk m c 2 t) := by dsimp only [dats]
theorem after_4 (c : Dev nD) (t : Fin cfg0.N) : (dats m 0 c).after 4 t = outK (iblk m c 0 t) (iblk m c 1 t) (iblk m c 2 t) := by dsimp only [dats]
theorem after_5 (c : Dev nD) (t : Fin cfg0.N) : (dats m 0 c).after 5 t = outV (iblk m c 0 t) (iblk m c 1 t) (iblk m c 2 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each of the region's arrays ending at what the blocks written
    back make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to its end and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.FrameRun

end
-- ==== Proof.KernelIdealFrame.lean ====
/-
  The region of `KernelIdeal` run to its end, and what it leaves.

  @main is five host operations — the three weight matrices laid side by side into a [1024, 3072] matrix and
  rounded to bf16, the three bias vectors laid end to end into a [3072] vector and reshaped to [1, 3072], the
  activations [4, 4096, 1024] reshaped to [16384, 1024] — followed by one region over a grid of 64 points.
  Point `t` is handed rows `256·t … 256·t + 255` of the reshaped activations (window 0), the whole weight matrix
  (window 1) and the whole bias row (window 2), and stores one [1, 16, 256, 64] block into each of the three
  results (windows 3, 4, 5). None of the host operations writes an argument array, and the region writes only
  its three results, so the seven argument arrays end as they were launched.

  Stated at any float instance `F`: nothing here looks inside the arithmetic, which stays behind the names
  `k0_pay2`, `k0_pay3`, `k0_pay4` (what the body stores into each result's block, from the three loads).
-/
import proofs.«146781_j58463094833510_2_alg».proof.Proof.Gen.KernelIdeal.Launch
import proofs.«146781_j58463094833510_2_alg».proof.Proof.Gen.KernelIdeal.Skeleton
import proofs.«146781_j58463094833510_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.FrameRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the five host operations. -/
abbrev V (c : Dev nD) (b : Ref sig .tc) : Buf (Elt F) ((c : Thread nD τ).loc b) :=
  StableHlo.after hostOps0 (fun b => m (c, b)) b

/-- No host operation leaves a buffer at contents it does not determine. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0 … main_v4` only: an argument array is found as launched. -/
theorem V_arg (a : Ref sig .tc) (h0 : main_v0 ≠ a) (h1 : main_v1 ≠ a) (h2 : main_v2 ≠ a) (h3 : main_v3 ≠ a) (h4 : main_v4 ≠ a)
    (c : Dev nD) : V m c a = m ((c : Thread nD τ).loc a) :=
  StableHlo.after_of_forall_not_mem (b := Proc.devRef .tc a) _ _ (List.forall_iff_forall_mem.mp (by
    simp only [hostOps0, List.Forall, StableHlo.nary_writes, StableHlo.unary_writes, StableHlo.reshape_writes, Finset.mem_singleton]
    exact ⟨(StableHlo.devRef_ne_of_ne h0.symm), (StableHlo.devRef_ne_of_ne h1.symm), (StableHlo.devRef_ne_of_ne h2.symm),
      (StableHlo.devRef_ne_of_ne h3.symm), (StableHlo.devRef_ne_of_ne h4.symm)⟩))

theorem V_main_arg0 (c : Dev nD) : V m c main_arg0 = m ((c : Thread nD τ).loc main_arg0) :=
  V_arg m main_arg0 (by decide) (by decide) (by decide) (by decide) (by decide) c
theorem V_main_arg1 (c : Dev nD) : V m c main_arg1 = m ((c : Thread nD τ).loc main_arg1) :=
  V_arg m main_arg1 (by decide) (by decide) (by decide) (by decide) (by decide) c
theorem V_main_arg2 (c : Dev nD) : V m c main_arg2 = m ((c : Thread nD τ).loc main_arg2) :=
  V_arg m main_arg2 (by decide) (by decide) (by decide) (by decide) (by decide) c
theorem V_main_arg3 (c : Dev nD) : V m c main_arg3 = m ((c : Thread nD τ).loc main_arg3) :=
  V_arg m main_arg3 (by decide) (by decide) (by decide) (by decide) (by decide) c
theorem V_main_arg4 (c : Dev nD) : V m c main_arg4 = m ((c : Thread nD τ).loc main_arg4) :=
  V_arg m main_arg4 (by decide) (by decide) (by decide) (by decide) (by decide) c
theorem V_main_arg5 (c : Dev nD) : V m c main_arg5 = m ((c : Thread nD τ).loc main_arg5) :=
  V_arg m main_arg5 (by decide) (by decide) (by decide) (by decide) (by decide) c
theorem V_main_arg6 (c : Dev nD) : V m c main_arg6 = m ((c : Thread nD τ).loc main_arg6) :=
  V_arg m main_arg6 (by decide) (by decide) (by decide) (by decide) (by decide) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, whether the block was fetched there or is the one
    the point before left: the body leaves it in place, and an unfetched block is the same block. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, whether the block was fetched there or is the one
    the point before left: the body leaves it in place, and an unfetched block is the same block. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, whether the block was fetched there or is the one
    the point before left: the body leaves it in place, and an unfetched block is the same block. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's -/

/-- From a run to the region's post: window 0's array is the reshaped activations, not an argument, so every
    argument array bypasses the region and is read back as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c)⟩) h

/-! ## The body's accesses: every load and store is of a whole buffer -/

abbrev rX : Rect S256x1024 := Rect.unit (s := S256x1024) ![0, 0] S256x1024.size inb_S256x1024_S256x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev rO : Rect S1x16x256x64 := Rect.unit (s := S1x16x256x64) ![0, 0, 0, 0] S1x16x256x64.size inb_S1x16x256x64_S1x16x256x64_0_0_0_0

/-! ## What the body leaves in each result's buffer -/

/-- The first result's buffer after the body: its one store, of `k0_pay2` of the three loads. -/
def outQ (x0 : Vec F S256x1024 .f32) (x1 : Vec F S1024x3072 .bf16) (x2 : Vec F S1x3072 .f32) : Vec F S1x16x256x64 .f32 :=
  View.canon [⟨rO, k0_pay2 (View.ld x0 rX) (View.ld x1 rW) (View.ld x2 rB)⟩]
/-- The second result's: `k0_pay3`. -/
def outK (x0 : Vec F S256x1024 .f32) (x1 : Vec F S1024x3072 .bf16) (x2 : Vec F S1x3072 .f32) : Vec F S1x16x256x64 .f32 :=
  View.canon [⟨rO, k0_pay3 (View.ld x0 rX) (View.ld x1 rW) (View.ld x2 rB)⟩]
/-- The third result's: `k0_pay4`. -/
def outV (x0 : Vec F S256x1024 .f32) (x1 : Vec F S1024x3072 .bf16) (x2 : Vec F S1x3072 .f32) : Vec F S1x16x256x64 .f32 :=
  View.canon [⟨rO, k0_pay4 (View.ld x0 rX) (View.ld x1 rW) (View.ld x2 rB)⟩]

/-- The one store is of the whole buffer, so it covers it. -/
theorem coverO (p0 : Vec F S1x16x256x64 .f32) (y : S1x16x256x64.Idx) :
    ∃ pc ∈ ([⟨rO, p0⟩] : List (View.Piece (Elt F) S1x16x256x64 .f32)), y ∈ pc.1.set :=
  View.cover_of_tiled [⟨rO, p0⟩] S1x16x256x64.size (by rfl) y

/-! ## The body's triple -/

set_option maxHeartbeats 1000000 in
/-- The body on whole buffers — the three inputs' at known contents, the three results' at anything — runs to the
    end leaving the inputs' as they were and each result's at its one store. -/
theorem sound_kernel (c : Dev nD) (E : Set ℕ) (i : grid0.Coords)
    (arg1 : Memref sig .tc .vmem S256x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1x16x256x64 .f32) (harg4 : arg4.IsWhole)
    (arg5 : Memref sig .tc .vmem S1x16x256x64 .f32) (harg5 : arg5.IsWhole) (arg6 : Memref sig .tc .vmem S1x16x256x64 .f32) (harg6 : arg6.IsWhole)
    (x0 : Vec F S256x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outQ x0 x1 x2) ∗ owns (c : Thread nD τ) arg5 fullShare (outK x0 x1 x2)
            ∗ owns (c : Thread nD τ) arg6 fullShare (outV x0 x1 x2)) -∗ K ⟨⟩))
      ⊢ wp frame (wpE (defs₀ (F := F)) Variants.none c none) E (cc0__fused_qkv_kernel i arg1 harg1 arg2 harg2 arg3 harg3 arg4 harg4 arg5 harg5 arg6 harg6) K := by
  simp only [cc0__fused_qkv_kernel_eq_skeleton]; unfold cc0__fused_qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  isplitl [H4]
  · iexists _; isplitr
    swap; · iexact H4
    ipureintro
    exact View.read_writes_eq_canon _ _ _ (coverO _)
  iexists _; isplitr
  swap; · iexact H5
  ipureintro
  exact View.read_writes_eq_canon _ _ _ (coverO _)

/-! ## The pipeline's proof data -/

/-- The arrays as the region finds them; after the body at point `t` each input's buffer at its block and each
    result's at its one store over the three input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outQ (iblk m c 0 t) (iblk m c 1 t) (iblk m c 2 t)
    | ⟨4, _⟩ => outK (iblk m c 0 t) (iblk m c 1 t) (iblk m c 2 t)
    | ⟨5, _⟩ => outV (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outQ (iblk m c 0 t) (iblk m c 1 t) (iblk m c 2 t) := by dsimp only [dats]
theorem after_4 (c : Dev nD) (t : Fin cfg0.N) : (dats m 0 c).after 4 t = outK (iblk m c 0 t) (iblk m c 1 t) (iblk m c 2 t) := by dsimp only [dats]
theorem after_5 (c : Dev nD) (t : Fin cfg0.N) : (dats m 0 c).after 5 t = outV (iblk m c 0 t) (iblk m c 1 t) (iblk m c 2 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each of the region's arrays ending at what the blocks written
    back make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to its end and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.FrameRun

end
-- ==== Proof.Spec.lean ====
/-
  One fused projection, entry by entry.

  The three weight matrices [1024, 1024] stand side by side in one matrix `W` : [1024, 3072] and the three bias vectors
  end to end in one vector `bias` : [3072]. Projection `j` (0, 1, 2: query, key, value) of the activations
  `x` : [4, 4096, 1024] is laid out by heads, [4, 16, 4096, 64]: its entry at batch `b`, head `h`, position `s`, lane `d` is

      Σ_k x[b, s, k] · W[k, c] + bias[c],   c = 1024·j + 64·h + d,

  over the extended reals. Both programs compute exactly this sum of products, term for term, so no law of arithmetic
  beyond re-indexing is needed to join them.
-/
import Idealize.ShloMosaic.Lib.ValueIdx
import Idealize.ShloMosaic.PureOps.Ideal

noncomputable section

namespace Cert.FusedQkv

open Idealize.ShloMosaic Idealize.ShloMosaic.ValueIdx

/-- The column of the stacked matrix that projection `j` reads at head `h`, lane `d`. -/
def col (j : Fin 3) (h : Fin 16) (d : Fin 64) : Fin 3072 :=
  ⟨1024 * j.val + 64 * h.val + d.val, by have hj := j.isLt; have hh := h.isLt; have hd := d.isLt; omega⟩

theorem col_val (j : Fin 3) (h : Fin 16) (d : Fin 64) : (col j h d).val = 1024 * j.val + 64 * h.val + d.val := rfl

/-- One entry of projection `j`. -/
def entry (j : Fin 3) (x : (⟨3, ![4, 4096, 1024]⟩ : Shape).Idx → EReal) (W : (⟨2, ![1024, 3072]⟩ : Shape).Idx → EReal)
    (bias : (⟨1, ![3072]⟩ : Shape).Idx → EReal) (b : Fin 4) (h : Fin 16) (s : Fin 4096) (d : Fin 64) : EReal :=
  (∑ k : Fin 1024, x (ix3 b s k) * W (ix2 k (col j h d))) + bias (ix1 (col j h d))

/-- Projection `j` as an array [4, 16, 4096, 64]. -/
def proj (j : Fin 3) (x : (⟨3, ![4, 4096, 1024]⟩ : Shape).Idx → EReal) (W : (⟨2, ![1024, 3072]⟩ : Shape).Idx → EReal)
    (bias : (⟨1, ![3072]⟩ : Shape).Idx → EReal) : (⟨4, ![4, 16, 4096, 64]⟩ : Shape).Idx → EReal :=
  fun i => entry j x W bias (i 0) (i 1) (i 2) (i 3)

theorem proj_ix4 (j : Fin 3) (x : (⟨3, ![4, 4096, 1024]⟩ : Shape).Idx → EReal) (W : (⟨2, ![1024, 3072]⟩ : Shape).Idx → EReal)
    (bias : (⟨1, ![3072]⟩ : Shape).Idx → EReal) (b : Fin 4) (h : Fin 16) (s : Fin 4096) (d : Fin 64) :
    proj j x W bias (ix4 b h s d) = entry j x W bias b h s d := rfl

end Cert.FusedQkv

end
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.BodyValue.lean ====
/-
  What one grid point stores, entry by entry.

  The body multiplies its [256, 1024] block of activations (rounded to bf16: no change on the extended reals) by the
  whole [1024, 3072] weight matrix, adds the bias row to every row, cuts the [256, 3072] product into three
  [256, 1024] column bands, and re-lays each band by heads: column `64·h + d` of band `j` at row `r` goes to
  position `(0, h, r, d)` of the [1, 16, 256, 64] block stored into result `j`. So that stored entry is

      Σ_k x[r, k] · W[k, c] + bias[0, c],   c = 1024·j + 64·h + d.
-/
import proofs.«146781_j58463094833510_2_alg».proof.Proof.Gen.KernelIdeal.Skeleton
import proofs.«146781_j58463094833510_2_alg».proof.Proof.Spec
import proofs.«146781_j58463094833510_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.FusedQkv.Body

open Cert.KernelIdeal Cert.KernelIdeal.Gen Cert.FusedQkv
open Idealize.ShloMosaic Idealize.ShloMosaic.ValueIdx

/-- The product plus the bias row, at row `r`, column `q`. -/
theorem biased_product_apply (x0 : FVec Ideal S256x1024 .f32) (x1 : FVec Ideal S1024x3072 .bf16) (x2 : FVec Ideal S1x3072 .f32)
    (r : Fin 256) (q : Fin 3072) :
    k0_pay1 (F := Ideal) x0 x1 x2 (ix2 r q) = (∑ k : Fin 1024, x0 (ix2 r k) * x1 (ix2 k q)) + x2 (ix2 (0 : Fin 1) q) := by
  unfold k0_pay1
  refine congrArg₂ (fun a b : EReal => a + b) ?_ ?_
  · refine (Cert.PlainDot.matmul_apply _ ⟨rfl, rfl, rfl, rfl, rfl, rfl⟩ none _ _ r q).trans ?_
    refine Finset.sum_congr rfl fun k _ => ?_
    rw [shapeCast_self, shapeCast_self]
    rfl
  · refine (broadcastTo_1b_ab_apply _ _ r q).trans ?_
    rw [shapeCast_self]

/-- A column band from `off`, split into 16 heads of 64 lanes and re-laid heads first, read at `(0, h, r, d)`:
    the source at row `r`, column `off + 64·h + d`. -/
theorem head_band_apply (y : FVec Ideal S256x3072 .f32) (off : Nat) (hs : S256x3072.Slices ![0, off] S256x1024)
    (hc : S256x1024.ShapeCasts S256x16x64) (ht : S256x16x64.Transposes [1, 0, 2] S16x256x64)
    (hu : S16x256x64.ShapeCasts S1x16x256x64) (u : Fin 1) (h : Fin 16) (r : Fin 256) (d : Fin 64) (q : Fin 3072)
    (hq : q.val = off + (64 * h.val + d.val)) :
    shapeCast S1x16x256x64 (transpose S16x256x64 [1, 0, 2] (shapeCast S256x16x64 (extractStridedSlice S256x1024 ![0, off] y hs) hc) ht) hu
      (ix4 u h r d) = y (ix2 r q) := by
  have hh := h.isLt
  have hd := d.isLt
  refine (shapeCast_abc_1abc_apply _ hu u h r d).trans ?_
  refine (transpose_apply [1, 0, 2] _ ht (ix3 h r d) (ix3 r h d) (fun b => match b with
    | ⟨0, _⟩ => rfl
    | ⟨1, _⟩ => rfl
    | ⟨2, _⟩ => rfl)).trans ?_
  refine (shapeCast_apply _ hc (ix3 r h d) (ix2 r (⟨64 * h.val + d.val, by omega⟩ : Fin 1024)) (by
    rw [Shape.rowMajor_val_two, Shape.rowMajor_val_three]
    show r.val * 1024 + (64 * h.val + d.val) = (r.val * 16 + h.val) * 64 + d.val
    omega)).trans ?_
  exact slice2_axis1_apply off y hs r (⟨64 * h.val + d.val, by omega⟩ : Fin 1024) q hq

/-- What the body stores into result `j`'s block, at `(0, h, r, d)`. -/
theorem stored_q (x0 : FVec Ideal S256x1024 .f32) (x1 : FVec Ideal S1024x3072 .bf16) (x2 : FVec Ideal S1x3072 .f32)
    (u : Fin 1) (h : Fin 16) (r : Fin 256) (d : Fin 64) :
    k0_pay2 (F := Ideal) x0 x1 x2 (ix4 u h r d)
      = (∑ k : Fin 1024, x0 (ix2 r k) * x1 (ix2 k (col 0 h d))) + x2 (ix2 (0 : Fin 1) (col 0 h d)) := by
  unfold k0_pay2
  refine (head_band_apply _ 0 _ _ _ _ u h r d (col 0 h d) (by rw [col_val]; show _ = 0 + _; omega)).trans ?_
  exact biased_product_apply x0 x1 x2 r (col 0 h d)

theorem stored_k (x0 : FVec Ideal S256x1024 .f32) (x1 : FVec Ideal S1024x3072 .bf16) (x2 : FVec Ideal S1x3072 .f32)
    (u : Fin 1) (h : Fin 16) (r : Fin 256) (d : Fin 64) :
    k0_pay3 (F := Ideal) x0 x1 x2 (ix4 u h r d)
      = (∑ k : Fin 1024, x0 (ix2 r k) * x1 (ix2 k (col 1 h d))) + x2 (ix2 (0 : Fin 1) (col 1 h d)) := by
  unfold k0_pay3
  refine (head_band_apply _ 1024 _ _ _ _ u h r d (col 1 h d) (by rw [col_val]; show _ = 1024 + _; omega)).trans ?_
  exact biased_product_apply x0 x1 x2 r (col 1 h d)

theorem stored_v (x0 : FVec Ideal S256x1024 .f32) (x1 : FVec Ideal S1024x3072 .bf16) (x2 : FVec Ideal S1x3072 .f32)
    (u : Fin 1) (h : Fin 16) (r : Fin 256) (d : Fin 64) :
    k0_pay4 (F := Ideal) x0 x1 x2 (ix4 u h r d)
      = (∑ k : Fin 1024, x0 (ix2 r k) * x1 (ix2 k (col 2 h d))) + x2 (ix2 (0 : Fin 1) (col 2 h d)) := by
  unfold k0_pay4
  refine (head_band_apply _ 2048 _ _ _ _ u h r d (col 2 h d) (by rw [col_val]; show _ = 2048 + _; omega)).trans ?_
  exact biased_product_apply x0 x1 x2 r (col 2 h d)

end Cert.FusedQkv.Body

end
-- ==== Proof.Arrays.lean ====
/-
  From the blocks the grid points write back to the three whole results.

  The region finds the activations reshaped to [16384, 1024] (row `4096·b + s` is batch `b`, position `s`), the stacked
  weights rounded to bf16 (no change on the extended reals) and the stacked bias as one row. Point `t` of the 64 reads
  rows `256·t … 256·t + 255`, that is batch `t / 16`, positions `256·(t mod 16) …`, and writes its three stored blocks
  at block index `(t / 16, 0, t mod 16, 0)` of the [4, 16, 4096, 64] results. The 64 blocks tile each result, so each
  result ends holding its projection everywhere.
-/
import proofs.«146781_j58463094833510_2_alg».proof.Proof.KernelIdealFrame
import proofs.«146781_j58463094833510_2_alg».proof.Proof.BodyValue
import Idealize.ShloMosaic.Lib.Pipeline.Value
import Idealize.ShloMosaic.Lib.ValueLayout
import Idealize.ShloMosaic.Lib.StableHlo.Run
import Idealize.ShloMosaic.Lib.Tactic

noncomputable section

namespace Cert.FusedQkv.Arrays

open Cert.KernelIdeal Cert.KernelIdeal.Gen Cert.KernelIdeal.FrameRun Cert.FusedQkv
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The three arrays the specification is stated over -/

/-- The activations as launched. -/
def acts (c : Dev nD) : S4x4096x1024.Idx → EReal := m ((c.tc : Thread nD τ).loc main_arg0)
/-- The three weight matrices side by side. -/
def weights (c : Dev nD) : S1024x3072.Idx → EReal :=
  concatenate S1024x3072 1 [⟨S1024x1024, m ((c.tc : Thread nD τ).loc main_arg1)⟩, ⟨S1024x1024, m ((c.tc : Thread nD τ).loc main_arg3)⟩, ⟨S1024x1024, m ((c.tc : Thread nD τ).loc main_arg5)⟩] concatenates_S1024x1024_S1024x1024_S1024x1024_S1024x3072_d1
/-- The three bias vectors end to end. -/
def biases (c : Dev nD) : S3072.Idx → EReal :=
  concatenate S3072 0 [⟨S1024, m ((c.tc : Thread nD τ).loc main_arg2)⟩, ⟨S1024, m ((c.tc : Thread nD τ).loc main_arg4)⟩, ⟨S1024, m ((c.tc : Thread nD τ).loc main_arg6)⟩] concatenates_S1024_S1024_S1024_S3072_d0

/-! ## What the region finds in its three input arrays -/

theorem found_acts (c : Dev nD) :
    (V m c main_v4 : S16384x1024.Idx → EReal) = shapeCast S16384x1024 (acts m c) shapeCasts_S4x4096x1024_S16384x1024 := by
  dsimp only [V, hostOps0]; after_results; rfl

theorem found_weights (c : Dev nD) : (V m c main_v1 : S1024x3072.Idx → EReal) = weights m c := by
  dsimp only [V, hostOps0]; after_results; rfl

theorem found_biases (c : Dev nD) :
    (V m c main_v3 : S1x3072.Idx → EReal) = shapeCast S1x3072 (biases m c) shapeCasts_S3072_S1x3072 := by
  dsimp only [V, hostOps0]; after_results; rfl

/-! ## The index maps, decided over the 64 points -/

theorem lt_64 (t : Fin cfg0.N) : t.val < 64 := by
  have h : t.val < cfg0.N := t.isLt
  have hN : cfg0.N = 64 := N_0
  omega

theorem index_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)
theorem index_out3 : ∀ t : Fin cfg0.N, win0_3.index t (0 : Fin 4) = t.val / 16 ∧ win0_3.index t (1 : Fin 4) = 0 ∧ win0_3.index t (2 : Fin 4) = t.val % 16 ∧ win0_3.index t (3 : Fin 4) = 0 :=
  (by decide +kernel : ∀ t : Fin grid0.N, _)
theorem index_out4 : ∀ t : Fin cfg0.N, win0_4.index t (0 : Fin 4) = t.val / 16 ∧ win0_4.index t (1 : Fin 4) = 0 ∧ win0_4.index t (2 : Fin 4) = t.val % 16 ∧ win0_4.index t (3 : Fin 4) = 0 :=
  (by decide +kernel : ∀ t : Fin grid0.N, _)
theorem index_out5 : ∀ t : Fin cfg0.N, win0_5.index t (0 : Fin 4) = t.val / 16 ∧ win0_5.index t (1 : Fin 4) = 0 ∧ win0_5.index t (2 : Fin 4) = t.val % 16 ∧ win0_5.index t (3 : Fin 4) = 0 :=
  (by decide +kernel : ∀ t : Fin grid0.N, _)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The input blocks at a point -/

/-- Row `r` of point `t`'s block of activations is batch `t / 16`, position `256·(t mod 16) + r`. -/
theorem acts_block (c : Dev nD) (t : Fin cfg0.N) (r : Fin 256) (k : Fin 1024) (b : Fin 4) (s : Fin 4096)
    (hb : b.val = t.val / 16) (hs : s.val = 256 * (t.val % 16) + r.val) :
    (iblk m c 0 t : S256x1024.Idx → EReal) (ix2 r k) = acts m c (ix3 b s k) := by
  obtain ⟨e0, e1, -⟩ := index_in t
  have ht : t.val < 64 := lt_64 t
  unfold iblk
  rw [View.read_apply]
  show (V m c main_v4 : S16384x1024.Idx → EReal) _ = _
  rw [found_acts]
  refine shapeCast_apply _ _ _ (ix3 b s k) ?_
  rw [Shape.rowMajor_val_three, Shape.rowMajor_val_two]
  show (b.val * 4096 + s.val) * 1024 + k.val
    = (win0_0.index t (0 : Fin 2) * 256 + 1 * r.val) * 1024 + (win0_0.index t (1 : Fin 2) * 1024 + 1 * k.val)
  rw [e0, e1, hb, hs]; omega

/-- Every point's block of weights is the whole stacked matrix. -/
theorem weights_block (c : Dev nD) (t : Fin cfg0.N) (k : Fin 1024) (q : Fin 3072) :
    (iblk m c 1 t : S1024x3072.Idx → EReal) (ix2 k q) = weights m c (ix2 k q) := by
  obtain ⟨-, -, e0, e1, -⟩ := index_in t
  unfold iblk
  rw [View.read_apply]
  show (V m c main_v1 : S1024x3072.Idx → EReal) _ = _
  rw [found_weights]
  refine congrArg (weights m c) ?_
  funext a; apply Fin.ext
  match a with
  | ⟨0, _⟩ => show win0_1.index t (0 : Fin 2) * 1024 + 1 * k.val = k.val; rw [e0]; omega
  | ⟨1, _⟩ => show win0_1.index t (1 : Fin 2) * 3072 + 1 * q.val = q.val; rw [e1]; omega

/-- Every point's block of bias is the whole stacked vector, as one row. -/
theorem biases_block (c : Dev nD) (t : Fin cfg0.N) (q : Fin 3072) :
    (iblk m c 2 t : S1x3072.Idx → EReal) (ix2 (0 : Fin 1) q) = biases m c (ix1 q) := by
  obtain ⟨-, -, -, -, e0, e1⟩ := index_in t
  unfold iblk
  rw [View.read_apply]
  show (V m c main_v3 : S1x3072.Idx → EReal) _ = _
  rw [found_biases]
  refine (congrArg _ (?_ : _ = ix2 (0 : Fin 1) q)).trans (shapeCast_a_1a_apply _ _ 0 q)
  funext a; apply Fin.ext
  match a with
  | ⟨0, _⟩ => show win0_2.index t (0 : Fin 2) * 1 + 1 * 0 = 0; rw [e0]
  | ⟨1, _⟩ => show win0_2.index t (1 : Fin 2) * 3072 + 1 * q.val = q.val; rw [e1]; omega

/-! ## Result 0 -/

/-- The entry point `t` stores at `(0, h, r, d)` of result 0's block is the specification's entry at batch `t / 16`,
    head `h`, position `256·(t mod 16) + r`, lane `d`. -/
theorem point_q (c : Dev nD) (t : Fin cfg0.N) (u : Fin 1) (h : Fin 16) (r : Fin 256) (d : Fin 64) (b : Fin 4) (s : Fin 4096)
    (hb : b.val = t.val / 16) (hs : s.val = 256 * (t.val % 16) + r.val) :
    k0_pay2 (F := Ideal) (iblk m c 0 t) (iblk m c 1 t) (iblk m c 2 t) (ix4 u h r d)
      = entry 0 (acts m c) (weights m c) (biases m c) b h s d := by
  refine (Body.stored_q _ _ _ u h r d).trans ?_
  unfold entry
  exact congrArg₂ (fun a b : EReal => a + b)
    (Finset.sum_congr rfl fun k _ => congrArg₂ (fun a b : EReal => a * b) (acts_block m c t r k b s hb hs) (weights_block m c t k _))
    (biases_block m c t _)

/-- What point `t` writes back to result 0 is block `t` of projection 0. -/
theorem flushed_q (c : Dev nD) (t : Fin cfg0.N) :
    (dats m 0 c).flushed 3 t = ((cfg0.win 3).blk t).view.read (Elt Ideal) (proj 0 (acts m c) (weights m c) (biases m c)) := by
  show (cfg0.win 3).cut (grid0.coords t) ((dats m 0 c).after 3 t) = _
  rw [after_3]
  unfold outQ
  rw [View.canon_unit_zero hz4]
  simp only [View.ld_unit_zero (S := S256x1024) hz2, View.ld_unit_zero (S := S1024x3072) hz2, View.ld_unit_zero (S := S1x3072) hz2]
  obtain ⟨f0, f1, f2, f3⟩ := index_out3 t
  have ht : t.val < 64 := lt_64 t
  funext j
  have hj0 : (j 0).val < 1 := (j 0).isLt
  have hj1 : (j 1).val < 16 := (j 1).isLt
  have hj2 : (j 2).val < 256 := (j 2).isLt
  have hj3 : (j 3).val < 64 := (j 3).isLt
  show k0_pay2 (F := Ideal) (iblk m c 0 t) (iblk m c 1 t) (iblk m c 2 t) j
    = proj 0 (acts m c) (weights m c) (biases m c) (((cfg0.win 3).blk t).view.emb j)
  have hemb : ((cfg0.win 3).blk t).view.emb j
      = ix4 (⟨t.val / 16, by omega⟩ : Fin 4) (⟨(j 1).val, hj1⟩ : Fin 16) (⟨256 * (t.val % 16) + (j 2).val, by omega⟩ : Fin 4096) (⟨(j 3).val, hj3⟩ : Fin 64) := by
    funext a; apply Fin.ext
    match a with
    | ⟨0, _⟩ => show win0_3.index t (0 : Fin 4) * 1 + 1 * (j 0).val = t.val / 16; rw [f0]; omega
    | ⟨1, _⟩ => show win0_3.index t (1 : Fin 4) * 16 + 1 * (j 1).val = (j 1).val; rw [f1]; omega
    | ⟨2, _⟩ => show win0_3.index t (2 : Fin 4) * 256 + 1 * (j 2).val = 256 * (t.val % 16) + (j 2).val; rw [f2]; omega
    | ⟨3, _⟩ => show win0_3.index t (3 : Fin 4) * 64 + 1 * (j 3).val = (j 3).val; rw [f3]; omega
  have hj : j = ix4 (⟨(j 0).val, hj0⟩ : Fin 1) (⟨(j 1).val, hj1⟩ : Fin 16) (⟨(j 2).val, hj2⟩ : Fin 256) (⟨(j 3).val, hj3⟩ : Fin 64) := by
    funext a; apply Fin.ext
    match a with
    | ⟨0, _⟩ => rfl
    | ⟨1, _⟩ => rfl
    | ⟨2, _⟩ => rfl
    | ⟨3, _⟩ => rfl
  rw [hemb, proj_ix4]
  refine (congrArg (k0_pay2 (F := Ideal) (iblk m c 0 t) (iblk m c 1 t) (iblk m c 2 t)) hj).trans ?_
  exact point_q m c t _ _ _ _ _ _ rfl rfl

/-- Every entry of result 0 lies in the block of exactly the point `16·b + s / 256`. -/
theorem covered_q (i : S4x16x4096x64.Idx) :
    ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 4096 := (i 2).isLt
  have h3 : (i 3).val < 64 := (i 3).isLt
  obtain ⟨t, ht⟩ : ∃ t : Fin cfg0.N, t.val = 16 * (i 0).val + (i 2).val / 256 :=
    ⟨⟨16 * (i 0).val + (i 2).val / 256, by rw [show cfg0.N = 64 from N_0]; omega⟩, rfl⟩
  obtain ⟨f0, f1, f2, f3⟩ := index_out3 t
  refine ⟨t, flush0_3 t, ?_⟩
  show i ∈ ((View.whole main_v5_0).slice (win0_3.rect t)).set
  rw [View.set_slice_whole, Rect.mem_set_unit]
  intro a
  match a with
  | ⟨0, _⟩ => show win0_3.index t (0 : Fin 4) * 1 ≤ (i 0).val ∧ (i 0).val < win0_3.index t (0 : Fin 4) * 1 + 1; rw [f0, ht]; omega
  | ⟨1, _⟩ => show win0_3.index t (1 : Fin 4) * 16 ≤ (i 1).val ∧ (i 1).val < win0_3.index t (1 : Fin 4) * 16 + 16; rw [f1]; omega
  | ⟨2, _⟩ => show win0_3.index t (2 : Fin 4) * 256 ≤ (i 2).val ∧ (i 2).val < win0_3.index t (2 : Fin 4) * 256 + 256; rw [f2, ht]; omega
  | ⟨3, _⟩ => show win0_3.index t (3 : Fin 4) * 64 ≤ (i 3).val ∧ (i 3).val < win0_3.index t (3 : Fin 4) * 64 + 64; rw [f3]; omega

/-- So result 0 ends holding projection 0. -/
theorem final_q (c : Dev nD) : (dats m 0 c).arrAt 3 cfg0.N = proj 0 (acts m c) (weights m c) (biases m c) :=
  (dats m 0 c).arrAt_eq_of_cover 3 _ (fun t _ => flushed_q m c t) covered_q

/-! ## Result 1 -/

/-- The entry point `t` stores at `(0, h, r, d)` of result 1's block is the specification's entry at batch `t / 16`,
    head `h`, position `256·(t mod 16) + r`, lane `d`. -/
theorem point_k (c : Dev nD) (t : Fin cfg0.N) (u : Fin 1) (h : Fin 16) (r : Fin 256) (d : Fin 64) (b : Fin 4) (s : Fin 4096)
    (hb : b.val = t.val / 16) (hs : s.val = 256 * (t.val % 16) + r.val) :
    k0_pay3 (F := Ideal) (iblk m c 0 t) (iblk m c 1 t) (iblk m c 2 t) (ix4 u h r d)
      = entry 1 (acts m c) (weights m c) (biases m c) b h s d := by
  refine (Body.stored_k _ _ _ u h r d).trans ?_
  unfold entry
  exact congrArg₂ (fun a b : EReal => a + b)
    (Finset.sum_congr rfl fun k _ => congrArg₂ (fun a b : EReal => a * b) (acts_block m c t r k b s hb hs) (weights_block m c t k _))
    (biases_block m c t _)

/-- What point `t` writes back to result 1 is block `t` of projection 1. -/
theorem flushed_k (c : Dev nD) (t : Fin cfg0.N) :
    (dats m 0 c).flushed 4 t = ((cfg0.win 4).blk t).view.read (Elt Ideal) (proj 1 (acts m c) (weights m c) (biases m c)) := by
  show (cfg0.win 4).cut (grid0.coords t) ((dats m 0 c).after 4 t) = _
  rw [after_4]
  unfold outK
  rw [View.canon_unit_zero hz4]
  simp only [View.ld_unit_zero (S := S256x1024) hz2, View.ld_unit_zero (S := S1024x3072) hz2, View.ld_unit_zero (S := S1x3072) hz2]
  obtain ⟨f0, f1, f2, f3⟩ := index_out4 t
  have ht : t.val < 64 := lt_64 t
  funext j
  have hj0 : (j 0).val < 1 := (j 0).isLt
  have hj1 : (j 1).val < 16 := (j 1).isLt
  have hj2 : (j 2).val < 256 := (j 2).isLt
  have hj3 : (j 3).val < 64 := (j 3).isLt
  show k0_pay3 (F := Ideal) (iblk m c 0 t) (iblk m c 1 t) (iblk m c 2 t) j
    = proj 1 (acts m c) (weights m c) (biases m c) (((cfg0.win 4).blk t).view.emb j)
  have hemb : ((cfg0.win 4).blk t).view.emb j
      = ix4 (⟨t.val / 16, by omega⟩ : Fin 4) (⟨(j 1).val, hj1⟩ : Fin 16) (⟨256 * (t.val % 16) + (j 2).val, by omega⟩ : Fin 4096) (⟨(j 3).val, hj3⟩ : Fin 64) := by
    funext a; apply Fin.ext
    match a with
    | ⟨0, _⟩ => show win0_4.index t (0 : Fin 4) * 1 + 1 * (j 0).val = t.val / 16; rw [f0]; omega
    | ⟨1, _⟩ => show win0_4.index t (1 : Fin 4) * 16 + 1 * (j 1).val = (j 1).val; rw [f1]; omega
    | ⟨2, _⟩ => show win0_4.index t (2 : Fin 4) * 256 + 1 * (j 2).val = 256 * (t.val % 16) + (j 2).val; rw [f2]; omega
    | ⟨3, _⟩ => show win0_4.index t (3 : Fin 4) * 64 + 1 * (j 3).val = (j 3).val; rw [f3]; omega
  have hj : j = ix4 (⟨(j 0).val, hj0⟩ : Fin 1) (⟨(j 1).val, hj1⟩ : Fin 16) (⟨(j 2).val, hj2⟩ : Fin 256) (⟨(j 3).val, hj3⟩ : Fin 64) := by
    funext a; apply Fin.ext
    match a with
    | ⟨0, _⟩ => rfl
    | ⟨1, _⟩ => rfl
    | ⟨2, _⟩ => rfl
    | ⟨3, _⟩ => rfl
  rw [hemb, proj_ix4]
  refine (congrArg (k0_pay3 (F := Ideal) (iblk m c 0 t) (iblk m c 1 t) (iblk m c 2 t)) hj).trans ?_
  exact point_k m c t _ _ _ _ _ _ rfl rfl

/-- Every entry of result 1 lies in the block of exactly the point `16·b + s / 256`. -/
theorem covered_k (i : S4x16x4096x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 4096 := (i 2).isLt
  have h3 : (i 3).val < 64 := (i 3).isLt
  obtain ⟨t, ht⟩ : ∃ t : Fin cfg0.N, t.val = 16 * (i 0).val + (i 2).val / 256 :=
    ⟨⟨16 * (i 0).val + (i 2).val / 256, by rw [show cfg0.N = 64 from N_0]; omega⟩, rfl⟩
  obtain ⟨f0, f1, f2, f3⟩ := index_out4 t
  refine ⟨t, flush0_4 t, ?_⟩
  show i ∈ ((View.whole main_v5_1).slice (win0_4.rect t)).set
  rw [View.set_slice_whole, Rect.mem_set_unit]
  intro a
  match a with
  | ⟨0, _⟩ => show win0_4.index t (0 : Fin 4) * 1 ≤ (i 0).val ∧ (i 0).val < win0_4.index t (0 : Fin 4) * 1 + 1; rw [f0, ht]; omega
  | ⟨1, _⟩ => show win0_4.index t (1 : Fin 4) * 16 ≤ (i 1).val ∧ (i 1).val < win0_4.index t (1 : Fin 4) * 16 + 16; rw [f1]; omega
  | ⟨2, _⟩ => show win0_4.index t (2 : Fin 4) * 256 ≤ (i 2).val ∧ (i 2).val < win0_4.index t (2 : Fin 4) * 256 + 256; rw [f2, ht]; omega
  | ⟨3, _⟩ => show win0_4.index t (3 : Fin 4) * 64 ≤ (i 3).val ∧ (i 3).val < win0_4.index t (3 : Fin 4) * 64 + 64; rw [f3]; omega

/-- So result 1 ends holding projection 1. -/
theorem final_k (c : Dev nD) : (dats m 0 c).arrAt 4 cfg0.N = proj 1 (acts m c) (weights m c) (biases m c) :=
  (dats m 0 c).arrAt_eq_of_cover 4 _ (fun t _ => flushed_k m c t) covered_k

/-! ## Result 2 -/

/-- The entry point `t` stores at `(0, h, r, d)` of result 2's block is the specification's entry at batch `t / 16`,
    head `h`, position `256·(t mod 16) + r`, lane `d`. -/
theorem point_v (c : Dev nD) (t : Fin cfg0.N) (u : Fin 1) (h : Fin 16) (r : Fin 256) (d : Fin 64) (b : Fin 4) (s : Fin 4096)
    (hb : b.val = t.val / 16) (hs : s.val = 256 * (t.val % 16) + r.val) :
    k0_pay4 (F := Ideal) (iblk m c 0 t) (iblk m c 1 t) (iblk m c 2 t) (ix4 u h r d)
      = entry 2 (acts m c) (weights m c) (biases m c) b h s d := by
  refine (Body.stored_v _ _ _ u h r d).trans ?_
  unfold entry
  exact congrArg₂ (fun a b : EReal => a + b)
    (Finset.sum_congr rfl fun k _ => congrArg₂ (fun a b : EReal => a * b) (acts_block m c t r k b s hb hs) (weights_block m c t k _))
    (biases_block m c t _)

/-- What point `t` writes back to result 2 is block `t` of projection 2. -/
theorem flushed_v (c : Dev nD) (t : Fin cfg0.N) :
    (dats m 0 c).flushed 5 t = ((cfg0.win 5).blk t).view.read (Elt Ideal) (proj 2 (acts m c) (weights m c) (biases m c)) := by
  show (cfg0.win 5).cut (grid0.coords t) ((dats m 0 c).after 5 t) = _
  rw [after_5]
  unfold outV
  rw [View.canon_unit_zero hz4]
  simp only [View.ld_unit_zero (S := S256x1024) hz2, View.ld_unit_zero (S := S1024x3072) hz2, View.ld_unit_zero (S := S1x3072) hz2]
  obtain ⟨f0, f1, f2, f3⟩ := index_out5 t
  have ht : t.val < 64 := lt_64 t
  funext j
  have hj0 : (j 0).val < 1 := (j 0).isLt
  have hj1 : (j 1).val < 16 := (j 1).isLt
  have hj2 : (j 2).val < 256 := (j 2).isLt
  have hj3 : (j 3).val < 64 := (j 3).isLt
  show k0_pay4 (F := Ideal) (iblk m c 0 t) (iblk m c 1 t) (iblk m c 2 t) j
    = proj 2 (acts m c) (weights m c) (biases m c) (((cfg0.win 5).blk t).view.emb j)
  have hemb : ((cfg0.win 5).blk t).view.emb j
      = ix4 (⟨t.val / 16, by omega⟩ : Fin 4) (⟨(j 1).val, hj1⟩ : Fin 16) (⟨256 * (t.val % 16) + (j 2).val, by omega⟩ : Fin 4096) (⟨(j 3).val, hj3⟩ : Fin 64) := by
    funext a; apply Fin.ext
    match a with
    | ⟨0, _⟩ => show win0_5.index t (0 : Fin 4) * 1 + 1 * (j 0).val = t.val / 16; rw [f0]; omega
    | ⟨1, _⟩ => show win0_5.index t (1 : Fin 4) * 16 + 1 * (j 1).val = (j 1).val; rw [f1]; omega
    | ⟨2, _⟩ => show win0_5.index t (2 : Fin 4) * 256 + 1 * (j 2).val = 256 * (t.val % 16) + (j 2).val; rw [f2]; omega
    | ⟨3, _⟩ => show win0_5.index t (3 : Fin 4) * 64 + 1 * (j 3).val = (j 3).val; rw [f3]; omega
  have hj : j = ix4 (⟨(j 0).val, hj0⟩ : Fin 1) (⟨(j 1).val, hj1⟩ : Fin 16) (⟨(j 2).val, hj2⟩ : Fin 256) (⟨(j 3).val, hj3⟩ : Fin 64) := by
    funext a; apply Fin.ext
    match a with
    | ⟨0, _⟩ => rfl
    | ⟨1, _⟩ => rfl
    | ⟨2, _⟩ => rfl
    | ⟨3, _⟩ => rfl
  rw [hemb, proj_ix4]
  refine (congrArg (k0_pay4 (F := Ideal) (iblk m c 0 t) (iblk m c 1 t) (iblk m c 2 t)) hj).trans ?_
  exact point_v m c t _ _ _ _ _ _ rfl rfl

/-- Every entry of result 2 lies in the block of exactly the point `16·b + s / 256`. -/
theorem covered_v (i : S4x16x4096x64.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 4096 := (i 2).isLt
  have h3 : (i 3).val < 64 := (i 3).isLt
  obtain ⟨t, ht⟩ : ∃ t : Fin cfg0.N, t.val = 16 * (i 0).val + (i 2).val / 256 :=
    ⟨⟨16 * (i 0).val + (i 2).val / 256, by rw [show cfg0.N = 64 from N_0]; omega⟩, rfl⟩
  obtain ⟨f0, f1, f2, f3⟩ := index_out5 t
  refine ⟨t, flush0_5 t, ?_⟩
  show i ∈ ((View.whole main_v5_2).slice (win0_5.rect t)).set
  rw [View.set_slice_whole, Rect.mem_set_unit]
  intro a
  match a with
  | ⟨0, _⟩ => show win0_5.index t (0 : Fin 4) * 1 ≤ (i 0).val ∧ (i 0).val < win0_5.index t (0 : Fin 4) * 1 + 1; rw [f0, ht]; omega
  | ⟨1, _⟩ => show win0_5.index t (1 : Fin 4) * 16 ≤ (i 1).val ∧ (i 1).val < win0_5.index t (1 : Fin 4) * 16 + 16; rw [f1]; omega
  | ⟨2, _⟩ => show win0_5.index t (2 : Fin 4) * 256 ≤ (i 2).val ∧ (i 2).val < win0_5.index t (2 : Fin 4) * 256 + 256; rw [f2, ht]; omega
  | ⟨3, _⟩ => show win0_5.index t (3 : Fin 4) * 64 ≤ (i 3).val ∧ (i 3).val < win0_5.index t (3 : Fin 4) * 64 + 64; rw [f3]; omega

/-- So result 2 ends holding projection 2. -/
theorem final_v (c : Dev nD) : (dats m 0 c).arrAt 5 cfg0.N = proj 2 (acts m c) (weights m c) (biases m c) :=
  (dats m 0 c).arrAt_eq_of_cover 5 _ (fun t _ => flushed_v m c t) covered_v

/-! ## The run, read -/

/-- Every weakly fair execution of @main terminates with the three results at the three projections of the arguments,
    and the arguments as launched. -/
theorem run : θ_run defs (onTc (τ := τ) (main (F := Ideal))) ⟨m, fun _ => 0, ρ⟩ fun r => ∀ c : Dev nD,
      r.2.mem ((c.tc : Thread nD τ).loc main_v5_0) = proj 0 (acts m c) (weights m c) (biases m c)
      ∧ r.2.mem ((c.tc : Thread nD τ).loc main_v5_1) = proj 1 (acts m c) (weights m c) (biases m c)
      ∧ r.2.mem ((c.tc : Thread nD τ).loc main_v5_2) = proj 2 (acts m c) (weights m c) (biases m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).1 3).trans (final_q m c), ((h c).1 4).trans (final_k m c), ((h c).1 5).trans (final_v m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c)⟩)
    (run_main m ρ)

end Cert.FusedQkv.Arrays

end
-- ==== Proof.RefValue.lean ====
/-
  The reference program's three results are the three projections of the specification.

  The reference multiplies the activations by the stacked weight matrix, adds the stacked bias along the last axis, cuts
  the 3072 columns into three runs of 1024, and lays each run out by heads: column 64·h + d of run j becomes head h,
  lane d. Read at one entry this is the specification's sum of products, term for term; the only work is the
  arithmetic of the indices.
-/
import proofs.«146781_j58463094833510_2_alg».proof.Proof.Gen.ReferenceIdeal.Read
import proofs.«146781_j58463094833510_2_alg».proof.Proof.Spec

noncomputable section

namespace Cert.FusedQkv.Ref

open Cert.ReferenceIdeal Cert.ReferenceIdeal.Read Idealize.ShloMosaic Idealize.ShloMosaic.ValueIdx

/-- The biased product at row (b, s) and column c: the sum over k of x[b, s, k] · W[k, c], plus bias[c]. -/
theorem biased_at (x0 : (⟨S4x4096x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (s : Fin 4096) (c : Fin 3072) :
    val_main_v5 (F := Ideal) x0 x1 x2 x3 x4 x5 x6 (ix3 b s c)
      = (∑ k : Fin 1024, x0 (ix3 b s k) * (val_main_v0 (F := Ideal) x1 x3 x5) (ix2 k c))
          + (val_main_v1 (F := Ideal) x2 x4 x6) (ix1 c) := by
  -- the product reads the activations along row (b, s) and the matrix down column c
  have el : ∀ k : Fin 1024, lidx_main_v2 (ix3 b s c) k = ix3 b s k := fun k => funext fun a => Fin.ext (by
    match a with
    | ⟨0, _⟩ => rfl
    | ⟨1, _⟩ => rfl
    | ⟨2, _⟩ => rfl)
  have er : ∀ k : Fin 1024, ridx_main_v2 (ix3 b s c) k = ix2 k c := fun k => funext fun a => Fin.ext (by
    match a with
    | ⟨0, _⟩ => rfl
    | ⟨1, _⟩ => rfl)
  -- the bias is repeated over the rows: only the column survives
  have eb : idx_main_v3 (idx_main_v4 (ix3 b s c)) = ix1 c := funext fun a => Fin.ext (by
    match a with
    | ⟨0, _⟩ => rfl)
  rw [val_main_v5_apply, val_main_v2_apply, val_main_v4_apply, val_main_v3_apply, eb]
  simp only [el, er]
  rfl

/-- The first result is projection 0 (the query). -/
theorem query_eq (x0 : (⟨S4x4096x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    val_main_v10 (F := Ideal) x0 x1 x2 x3 x4 x5 x6
      = Cert.FusedQkv.proj 0 x0 (val_main_v0 (F := Ideal) x1 x3 x5) (val_main_v1 (F := Ideal) x2 x4 x6) := by
  funext i
  obtain ⟨b, h, s, d, rfl⟩ : ∃ (b : Fin 4) (h : Fin 16) (s : Fin 4096) (d : Fin 64), i = ix4 b h s d :=
    ⟨i 0, i 1, i 2, i 3, eq_ix4 i⟩
  -- entry (b, h, s, d) of the head layout is row (b, s), column 0 + 64·h + d of the biased product: the flat
  -- position ((b·4096 + s)·16 + h)·64 + d splits as b·4194304 + s·1024 + (64·h + d) with 64·h + d < 1024
  have e : idx_main_v6 (idx_main_v9 (idx_main_v10 (ix4 b h s d))) = ix3 b s (col 0 h d) := by
    funext a
    refine Fin.ext ?_
    have hb : b.val < 4 := b.isLt
    have hh : h.val < 16 := h.isLt
    have hs : s.val < 4096 := s.isLt
    have hd : d.val < 64 := d.isLt
    match a with
    | ⟨0, _⟩ =>
      show (((b.val * 4096 + s.val) * 16 + h.val) * 64 + d.val) / 4194304 = b.val
      omega
    | ⟨1, _⟩ =>
      show (((b.val * 4096 + s.val) * 16 + h.val) * 64 + d.val) / 1024 % 4096 = s.val
      omega
    | ⟨2, _⟩ =>
      show (((b.val * 4096 + s.val) * 16 + h.val) * 64 + d.val) % 1024 = 1024 * 0 + 64 * h.val + d.val
      omega
  rw [val_main_v10_apply, val_main_v9_apply, val_main_v6_apply, e, biased_at]
  rfl

/-- The second result is projection 1 (the key). -/
theorem key_eq (x0 : (⟨S4x4096x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    val_main_v12 (F := Ideal) x0 x1 x2 x3 x4 x5 x6
      = Cert.FusedQkv.proj 1 x0 (val_main_v0 (F := Ideal) x1 x3 x5) (val_main_v1 (F := Ideal) x2 x4 x6) := by
  funext i
  obtain ⟨b, h, s, d, rfl⟩ : ∃ (b : Fin 4) (h : Fin 16) (s : Fin 4096) (d : Fin 64), i = ix4 b h s d :=
    ⟨i 0, i 1, i 2, i 3, eq_ix4 i⟩
  -- entry (b, h, s, d) of the head layout is row (b, s), column 1024 + 64·h + d of the biased product: the flat
  -- position ((b·4096 + s)·16 + h)·64 + d splits as b·4194304 + s·1024 + (64·h + d) with 64·h + d < 1024
  have e : idx_main_v7 (idx_main_v11 (idx_main_v12 (ix4 b h s d))) = ix3 b s (col 1 h d) := by
    funext a
    refine Fin.ext ?_
    have hb : b.val < 4 := b.isLt
    have hh : h.val < 16 := h.isLt
    have hs : s.val < 4096 := s.isLt
    have hd : d.val < 64 := d.isLt
    match a with
    | ⟨0, _⟩ =>
      show (((b.val * 4096 + s.val) * 16 + h.val) * 64 + d.val) / 4194304 = b.val
      omega
    | ⟨1, _⟩ =>
      show (((b.val * 4096 + s.val) * 16 + h.val) * 64 + d.val) / 1024 % 4096 = s.val
      omega
    | ⟨2, _⟩ =>
      show 1024 + (((b.val * 4096 + s.val) * 16 + h.val) * 64 + d.val) % 1024 = 1024 * 1 + 64 * h.val + d.val
      omega
  rw [val_main_v12_apply, val_main_v11_apply, val_main_v7_apply, e, biased_at]
  rfl

/-- The third result is projection 2 (the value). -/
theorem value_eq (x0 : (⟨S4x4096x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    val_main_v14 (F := Ideal) x0 x1 x2 x3 x4 x5 x6
      = Cert.FusedQkv.proj 2 x0 (val_main_v0 (F := Ideal) x1 x3 x5) (val_main_v1 (F := Ideal) x2 x4 x6) := by
  funext i
  obtain ⟨b, h, s, d, rfl⟩ : ∃ (b : Fin 4) (h : Fin 16) (s : Fin 4096) (d : Fin 64), i = ix4 b h s d :=
    ⟨i 0, i 1, i 2, i 3, eq_ix4 i⟩
  -- entry (b, h, s, d) of the head layout is row (b, s), column 2048 + 64·h + d of the biased product: the flat
  -- position ((b·4096 + s)·16 + h)·64 + d splits as b·4194304 + s·1024 + (64·h + d) with 64·h + d < 1024
  have e : idx_main_v8 (idx_main_v13 (idx_main_v14 (ix4 b h s d))) = ix3 b s (col 2 h d) := by
    funext a
    refine Fin.ext ?_
    have hb : b.val < 4 := b.isLt
    have hh : h.val < 16 := h.isLt
    have hs : s.val < 4096 := s.isLt
    have hd : d.val < 64 := d.isLt
    match a with
    | ⟨0, _⟩ =>
      show (((b.val * 4096 + s.val) * 16 + h.val) * 64 + d.val) / 4194304 = b.val
      omega
    | ⟨1, _⟩ =>
      show (((b.val * 4096 + s.val) * 16 + h.val) * 64 + d.val) / 1024 % 4096 = s.val
      omega
    | ⟨2, _⟩ =>
      show 2048 + (((b.val * 4096 + s.val) * 16 + h.val) * 64 + d.val) % 1024 = 1024 * 2 + 64 * h.val + d.val
      omega
  rw [val_main_v14_apply, val_main_v13_apply, val_main_v8_apply, e, biased_at]
  rfl

end Cert.FusedQkv.Ref

end
-- ==== Proof.lean ====
/-
  The fused query / key / value projection against its reference, over the extended reals.

  Both programs stack the three [1024, 1024] weight matrices side by side and the three [1024] biases end to end, and
  both produce, for projection j = 0, 1, 2, the array [4, 16, 4096, 64] whose entry at batch b, head h, position s,
  lane d is Σ_k x[b, s, k] · W[k, 1024·j + 64·h + d] + bias[1024·j + 64·h + d] (Proof/Spec.lean).
  The kernel reaches it block by block: the activations reshaped to [16384, 1024] and cut into 64 blocks of 256 rows,
  each multiplied by the whole stacked matrix (its rounding to bf16 is no change on the extended reals), biased, cut
  into three column bands and re-laid by heads into block (t / 16, 0, t mod 16, 0) of each result
  (Proof/BodyValue.lean, Proof/Arrays.lean, over the run of Proof/KernelIdealFrame.lean). The reference reaches it
  by one product over the whole array, then slices, a reshape and a transposition (Proof/RefValue.lean). The two sums
  have the same terms in the same order, so nothing is asked of the inputs: the precondition is never opened.
  The three frames: no host operation and no grid point writes an argument array. The idealized kernel is the printed
  kernel read at the extended reals with no rewrite applied, so there is nothing to preserve.
-/
import proofs.«146781_j58463094833510_2_alg».proof.Defs
import proofs.«146781_j58463094833510_2_alg».proof.Proof.Gen.Kernel
import proofs.«146781_j58463094833510_2_alg».proof.Proof.Gen.KernelIdeal
import proofs.«146781_j58463094833510_2_alg».proof.Proof.Gen.ReferenceIdeal
import proofs.«146781_j58463094833510_2_alg».proof.Proof.Gen.Pre_finite_inputs
import proofs.«146781_j58463094833510_2_alg».proof.Proof.Gen.ReferenceIdeal.Run
import proofs.«146781_j58463094833510_2_alg».proof.Proof.Gen.ReferenceIdeal.Read
import proofs.«146781_j58463094833510_2_alg».proof.Proof.KernelFrame
import proofs.«146781_j58463094833510_2_alg».proof.Proof.KernelIdealFrame
import proofs.«146781_j58463094833510_2_alg».proof.Proof.Arrays
import proofs.«146781_j58463094833510_2_alg».proof.Proof.RefValue
import Idealize.ShloMosaic.Adequacy
import Idealize.ShloMosaic.Init

noncomputable section

namespace Cert.Proof

open Idealize.ShloMosaic Idealize.SL.Sem
open Cert.FusedQkv

theorem frame_kernel : Cert.frame_Kernel := fun m ρ _ => Cert.Kernel.FrameRun.frame m ρ

theorem frame_ideal : Cert.frame_KernelIdeal := fun m ρ _ => Cert.KernelIdeal.FrameRun.frame m ρ

/-- The reference is host operations only: its run leaves every argument as launched. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both programs end with result j at projection j of the same three arrays: the activations, the stacked weights
    and the stacked bias of arguments that agree. -/
theorem algebraic : Cert.algebraic_KernelIdeal_ReferenceIdeal := by
  intro m ρ m' ρ' _ hagree
  refine ⟨fun c => proj 0 (Arrays.acts m c) (Arrays.weights m c) (Arrays.biases m c),
    fun c => proj 1 (Arrays.acts m c) (Arrays.weights m c) (Arrays.biases m c),
    fun c => proj 2 (Arrays.acts m c) (Arrays.weights m c) (Arrays.biases m c), Arrays.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨r0, r1, r2, rest⟩ := h c
  refine ⟨r0.trans ?_, r1.trans ?_, r2.trans ?_, rest⟩
  · rw [a0, a1, a2, a3, a4, a5, a6, Cert.ReferenceIdeal.Read.val_main_v10_eq, Ref.query_eq]
    rfl
  · rw [a0, a1, a2, a3, a4, a5, a6, Cert.ReferenceIdeal.Read.val_main_v12_eq, Ref.key_eq]
    rfl
  · rw [a0, a1, a2, a3, a4, a5, a6, Cert.ReferenceIdeal.Read.val_main_v14_eq, Ref.value_eq]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
